-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S50000x64 .f32) (main_arg1 : FVec F S800000x1 .f32) (main_arg2 : FVec F S64x64 .f32) (main_arg3 : FVec F S64x64 .f32) (main_arg4 : IVec S800000 32) (main_arg5 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩
abbrev S800000x64 : Shape := ⟨2, ![800000, 64]⟩
abbrev S50000 : Shape := ⟨1, ![50000]⟩
abbrev S50000x1 : Shape := ⟨2, ![50000, 1]⟩
abbrev S5000x64 : Shape := ⟨2, ![5000, 64]⟩
abbrev S5000x1 : Shape := ⟨2, ![5000, 1]⟩

abbrev nBuf : Space → Nat
  | .hbm => 26
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S64x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S800000x1_S800000 : S800000x1.ShapeCasts S800000
  bcast_S_S50000 : S_.BroadcastsInDim S50000 (![] : Fin 0 → Fin S50000.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x1 : Shape := ⟨2, ![800000, 1]⟩
abbrev S64x64 : Shape := ⟨2, ![64, 64]⟩
abbrev S800000 : Shape := ⟨1, ![800000]⟩
abbrev S_ : Shape := ⟨0, ![]⟩
abbrev S800000x64 : Shape := ⟨2, ![800000, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x1, .f32⟩
  | .hbm, ⟨2, _⟩ => ⟨S64x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x64, .f32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Tile.lean ====
/-
  One tile of the dense stage, entry by entry.

  At a grid point the body holds a 5000-row tile of the node features `f`, the same rows of the raw neighbour sums `a`
  and of the per-node weight sums `s` (one column), and the two whole 64 × 64 weight matrices `W₁`, `W₂`. What it
  stores is, at row `p` and column `q`,
      ∑ₖ f[p, k] · W₁[k, q]  +  ∑ₖ (a[p, k] − s[p, 0]) · W₂[k, q] :
  the two matrix products start from a zero accumulator, the roundings to bf16 on the way into the matrix unit are the
  identity on exact values, and the column `s` is broadcast along the 64 lanes before the subtraction.
-/
import proofs.«146689_j5866925326658_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The contraction's operand indices -/

theorem lhs0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
theorem rhs0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
theorem rhs1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile's product into the zero accumulator, at row `p` and column `q`: the sum over the 64 contracted positions. -/
theorem matmul_zero_at {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs0 _ _
    | ⟨1, _⟩ => exact (lhs1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs0 _ _).trans hk
    | ⟨1, _⟩ => exact rhs1 _ _)
  rw [el, er]

/-- The one-column tile broadcast along the lanes, at `(p, q)`: the column's entry of row `p`. -/
theorem column_broadcast_at (s : FVec Ideal S5000x1 .f32) (p : Fin 5000) (q : Fin 64) :
    broadcastTo S5000x64 s broadcasts_S5000x1_S5000x64 (ix2 p q) = s (ix2 p (0 : Fin 1)) :=
  broadcastTo_apply s broadcasts_S5000x1_S5000x64 (ix2 p q) (ix2 p (0 : Fin 1)) (fun a => by
    match a with
    | ⟨0, _⟩ => show p.val = if (5000 : Nat) = 1 then 0 else p.val; rw [if_neg (by decide)]
    | ⟨1, _⟩ => show 0 = if (1 : Nat) = 1 then 0 else q.val; rw [if_pos rfl])

/-- WHAT THE BODY STORES, at row `p` and column `q` of the tile. -/
theorem stored_at (a : Vec Ideal S5000x64 .f32) (s : Vec Ideal S5000x1 .f32) (f : Vec Ideal S5000x64 .f32)
    (W₁ W₂ : Vec Ideal S64x64 .f32) (p : Fin 5000) (q : Fin 64) :
    k0_pay1 (F := Ideal) a s f W₁ W₂ (ix2 p q)
      = (∑ k : Fin 64, f (ix2 p k) * W₁ (ix2 k q)) + ∑ k : Fin 64, (a (ix2 p k) - s (ix2 p (0 : Fin 1))) * W₂ (ix2 k q) := by
  unfold k0_pay1
  rw [shapeCast_self, shapeCast_self]
  refine (addf_apply _ _ _).trans ?_
  rw [matmul_zero_at, matmul_zero_at]
  refine congrArg₂ (· + ·) rfl (Finset.sum_congr rfl fun k _ => ?_)
  rw [truncf_apply, subf_apply, column_broadcast_at]
  rfl

/-! ## The same at any index of the tile -/

/-- Entry `(p, k)` of a `[5000, 64]` tile, for the tile index `j = (p, q)`. -/
abbrev rowT (j : S5000x64.Idx) (k : Fin 64) : S5000x64.Idx := fun a => match a with
  | ⟨0, _⟩ => ⟨(j 0).val, (j 0).isLt⟩
  | ⟨1, _⟩ => ⟨k.val, k.isLt⟩

/-- Entry `(k, q)` of a `[64, 64]` matrix, for the tile index `j = (p, q)`. -/
abbrev colT (j : S5000x64.Idx) (k : Fin 64) : S64x64.Idx := fun a => match a with
  | ⟨0, _⟩ => ⟨k.val, k.isLt⟩
  | ⟨1, _⟩ => ⟨(j 1).val, (j 1).isLt⟩

/-- Entry `(p, 0)` of the one-column tile, for the tile index `j = (p, q)`. -/
abbrev keyT (j : S5000x64.Idx) : S5000x1.Idx := fun a => match a with
  | ⟨0, _⟩ => ⟨(j 0).val, (j 0).isLt⟩
  | ⟨1, _⟩ => ⟨0, Nat.one_pos⟩

/-- WHAT THE BODY STORES, at any index `j` of the tile. -/
theorem stored (a : Vec Ideal S5000x64 .f32) (s : Vec Ideal S5000x1 .f32) (f : Vec Ideal S5000x64 .f32)
    (W₁ W₂ : Vec Ideal S64x64 .f32) (j : S5000x64.Idx) :
    k0_pay1 (F := Ideal) a s f W₁ W₂ j
      = (∑ k : Fin 64, f (rowT j k) * W₁ (colT j k)) + ∑ k : Fin 64, (a (rowT j k) - s (keyT j)) * W₂ (colT j k) := by
  obtain ⟨p, q, rfl⟩ : ∃ (p : Fin 5000) (q : Fin 64), j = ix2 p q := ⟨j 0, j 1, eq_ix2 j⟩
  have er : ∀ k : Fin 64, rowT (ix2 p q) k = ix2 p k := fun k => funext fun a => by
    match a with
    | ⟨0, _⟩ => rfl
    | ⟨1, _⟩ => rfl
  have ec : ∀ k : Fin 64, colT (ix2 p q) k = ix2 k q := fun k => funext fun a => by
    match a with
    | ⟨0, _⟩ => rfl
    | ⟨1, _⟩ => rfl
  have ek : keyT (ix2 p q) = ix2 p (0 : Fin 1) := funext fun a => by
    match a with
    | ⟨0, _⟩ => rfl
    | ⟨1, _⟩ => rfl
  simp only [er, ec, ek]
  exact stored_at a s f W₁ W₂ p q

end Cert.KernelIdeal.Tile

end
-- ==== Proof.Dense.lean ====
/-
  The dense stage as ONE function of whole arrays.

  For node features `f` and an aggregate `g`, both `[50000, 64]`, and two `[64, 64]` weight matrices, the result at
  node `n` and output column `d` is
      ∑ₖ f[n, k] · W₁[k, d]  +  ∑ₖ g[n, k] · W₂[k, d].
  Both programs end holding this function of their own aggregate; `rowK i k` is the entry `(n, k)` and `colK i k` the entry `(k, d)`
  that result index `i = (n, d)` reads at contracted position `k`, and `keyOf j` is the entry `(n, 0)` of a one-column
  per-node array that belongs to entry `j = (n, ·)`.
-/
import Idealize.ShloMosaic.PureOps.Ideal
import Idealize.ShloMosaic.Lib.ValueIdx

noncomputable section

open scoped BigOperators

namespace Cert.Dense

open Idealize.ShloMosaic

/-- Entry `(n, k)` of a `[50000, 64]` array, for the result index `i = (n, d)`. -/
abbrev rowK (i : (⟨2, ![50000, 64]⟩ : Shape).Idx) (k : Fin 64) : (⟨2, ![50000, 64]⟩ : Shape).Idx := fun a => match a with
  | ⟨0, _⟩ => ⟨(i 0).val, (i 0).isLt⟩
  | ⟨1, _⟩ => ⟨k.val, k.isLt⟩

/-- Entry `(k, d)` of a `[64, 64]` matrix, for the result index `i = (n, d)`. -/
abbrev colK (i : (⟨2, ![50000, 64]⟩ : Shape).Idx) (k : Fin 64) : (⟨2, ![64, 64]⟩ : Shape).Idx := fun a => match a with
  | ⟨0, _⟩ => ⟨k.val, k.isLt⟩
  | ⟨1, _⟩ => ⟨(i 1).val, (i 1).isLt⟩

/-- Entry `(n, 0)` of a `[50000, 1]` column, for the entry `j = (n, ·)`. -/
abbrev keyOf (j : (⟨2, ![50000, 64]⟩ : Shape).Idx) : (⟨2, ![50000, 1]⟩ : Shape).Idx := fun a => match a with
  | ⟨0, _⟩ => ⟨(j 0).val, (j 0).isLt⟩
  | ⟨1, _⟩ => ⟨0, Nat.one_pos⟩

/-- A `[50000, 64]` array less a per-node column: entry `(n, k)` of `a` minus entry `(n, 0)` of `s`. -/
def less (a : (⟨2, ![50000, 64]⟩ : Shape).Idx → EReal) (s : (⟨2, ![50000, 1]⟩ : Shape).Idx → EReal) :
    (⟨2, ![50000, 64]⟩ : Shape).Idx → EReal := fun j => a j - s (keyOf j)

/-- `f · W₁ + g · W₂`, entry by entry. -/
def dense (f g : (⟨2, ![50000, 64]⟩ : Shape).Idx → EReal) (W₁ W₂ : (⟨2, ![64, 64]⟩ : Shape).Idx → EReal) :
    (⟨2, ![50000, 64]⟩ : Shape).Idx → EReal := fun i =>
  (∑ k : Fin 64, f (rowK i k) * W₁ (colK i k)) + ∑ k : Fin 64, g (rowK i k) * W₂ (colK i k)

end Cert.Dense

end
-- ==== Proof.Array.lean ====
/-
  From tiles to the whole result array.

  The grid has ten points; point `t` reads rows `[5000·t, 5000·t + 5000)` of the node features, of the raw neighbour
  sums and of the one-column weight sums, the two weight matrices whole, and writes the same rows of the result. So
  what point `t` writes back is block `t` of ONE function of the whole arrays, the dense stage
  `feat · W₁ + (raw − sums) · W₂` (`Cert.Dense.dense` at the aggregate `agg` below); the ten blocks tile the result
  array (row `r` lies in block `r / 5000`), so the array ends holding that function.
-/
import proofs.«146689_j5866925326658_2_alg».proof.Proof.Gen.KernelIdeal.Value
import proofs.«146689_j5866925326658_2_alg».proof.Proof.Tile
import proofs.«146689_j5866925326658_2_alg».proof.Proof.Dense

noncomputable section

open scoped BigOperators

namespace Cert.KernelIdeal.DenseValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The aggregate the kernel feeds to `W₂`: at `(n, k)`, the raw neighbour sum less node `n`'s weight sum. -/
def agg (c : Dev nD) : S50000x64.Idx → EReal := Cert.Dense.less (V m c main_v9) (V m c main_v14)

/-- The printed index maps over the ten points: the three row-tiled inputs move with the output's row block, no window
    moves along the columns, the weight matrices stay put, and the output's row block at point `t` is `t`. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-! ## A tile of ANY array, read off the whole array -/

section Reads
variable (t : Fin cfg0.N) (j : S5000x64.Idx) (k : Fin 64)

theorem read_feat (A : S50000x64.Idx → EReal) :
    ((cfg0.win 0).blk t).view.read (Elt Ideal) A (Tile.rowT j k) = A (Cert.Dense.rowK (((cfg0.win 5).blk t).view.emb j) k) := by
  obtain ⟨f00, f01, f10, f11, f20, f21, f30, f31, f40, f41, f51, -⟩ := block_indices t
  show A (((cfg0.win 0).blk t).view.emb (Tile.rowT j k)) = _
  refine congrArg A (funext fun a => Fin.ext ?_)
  match a with
  | ⟨0, _⟩ =>
    refine (Pipeline.Window.rect_emb_val win0_0 t (Tile.rowT j k) 0).trans (Eq.trans ?_ (Pipeline.Window.rect_emb_val win0_5 t j 0).symm)
    rw [f00]
    rfl
  | ⟨1, _⟩ =>
    refine (Pipeline.Window.rect_emb_val win0_0 t (Tile.rowT j k) 1).trans ?_
    rw [f01, Nat.zero_mul, Nat.zero_add]
    rfl

theorem read_raw (A : S50000x64.Idx → EReal) :
    ((cfg0.win 1).blk t).view.read (Elt Ideal) A (Tile.rowT j k) = A (Cert.Dense.rowK (((cfg0.win 5).blk t).view.emb j) k) := by
  obtain ⟨f00, f01, f10, f11, f20, f21, f30, f31, f40, f41, f51, -⟩ := block_indices t
  show A (((cfg0.win 1).blk t).view.emb (Tile.rowT j k)) = _
  refine congrArg A (funext fun a => Fin.ext ?_)
  match a with
  | ⟨0, _⟩ =>
    refine (Pipeline.Window.rect_emb_val win0_1 t (Tile.rowT j k) 0).trans (Eq.trans ?_ (Pipeline.Window.rect_emb_val win0_5 t j 0).symm)
    rw [f10]
    rfl
  | ⟨1, _⟩ =>
    refine (Pipeline.Window.rect_emb_val win0_1 t (Tile.rowT j k) 1).trans ?_
    rw [f11, Nat.zero_mul, Nat.zero_add]
    rfl

theorem read_sums (A : S50000x1.Idx → EReal) :
    ((cfg0.win 2).blk t).view.read (Elt Ideal) A (Tile.keyT j) = A (Cert.Dense.keyOf (Cert.Dense.rowK (((cfg0.win 5).blk t).view.emb j) k)) := by
  obtain ⟨f00, f01, f10, f11, f20, f21, f30, f31, f40, f41, f51, -⟩ := block_indices t
  show A (((cfg0.win 2).blk t).view.emb (Tile.keyT j)) = _
  refine congrArg A (funext fun a => Fin.ext ?_)
  match a with
  | ⟨0, _⟩ =>
    refine (Pipeline.Window.rect_emb_val win0_2 t (Tile.keyT j) 0).trans (Eq.trans ?_ (Pipeline.Window.rect_emb_val win0_5 t j 0).symm)
    rw [f20]
    rfl
  | ⟨1, _⟩ =>
    refine (Pipeline.Window.rect_emb_val win0_2 t (Tile.keyT j) 1).trans ?_
    rw [f21, Nat.zero_mul, Nat.zero_add]
    rfl

theorem read_W1 (A : S64x64.Idx → EReal) :
    ((cfg0.win 3).blk t).view.read (Elt Ideal) A (Tile.colT j k) = A (Cert.Dense.colK (((cfg0.win 5).blk t).view.emb j) k) := by
  obtain ⟨f00, f01, f10, f11, f20, f21, f30, f31, f40, f41, f51, -⟩ := block_indices t
  show A (((cfg0.win 3).blk t).view.emb (Tile.colT j k)) = _
  refine congrArg A (funext fun a => Fin.ext ?_)
  match a with
  | ⟨0, _⟩ =>
    refine (Pipeline.Window.rect_emb_val win0_3 t (Tile.colT j k) 0).trans ?_
    rw [f30, Nat.zero_mul, Nat.zero_add]
    rfl
  | ⟨1, _⟩ =>
    refine (Pipeline.Window.rect_emb_val win0_3 t (Tile.colT j k) 1).trans (Eq.trans ?_ (Pipeline.Window.rect_emb_val win0_5 t j 1).symm)
    rw [f31, f51, Nat.zero_mul, Nat.zero_add, Nat.zero_mul, Nat.zero_add]
    rfl

theorem read_W2 (A : S64x64.Idx → EReal) :
    ((cfg0.win 4).blk t).view.read (Elt Ideal) A (Tile.colT j k) = A (Cert.Dense.colK (((cfg0.win 5).blk t).view.emb j) k) := by
  obtain ⟨f00, f01, f10, f11, f20, f21, f30, f31, f40, f41, f51, -⟩ := block_indices t
  show A (((cfg0.win 4).blk t).view.emb (Tile.colT j k)) = _
  refine congrArg A (funext fun a => Fin.ext ?_)
  match a with
  | ⟨0, _⟩ =>
    refine (Pipeline.Window.rect_emb_val win0_4 t (Tile.colT j k) 0).trans ?_
    rw [f40, Nat.zero_mul, Nat.zero_add]
    rfl
  | ⟨1, _⟩ =>
    refine (Pipeline.Window.rect_emb_val win0_4 t (Tile.colT j k) 1).trans (Eq.trans ?_ (Pipeline.Window.rect_emb_val win0_5 t j 1).symm)
    rw [f41, f51, Nat.zero_mul, Nat.zero_add, Nat.zero_mul, Nat.zero_add]
    rfl

end Reads

/-! ## What a point writes back -/

/-- For ANY contents of the five input arrays: the body's result on their blocks at point `t` is block `t` of the
    dense stage of the whole arrays. -/
theorem stored_block (A0 A1 : S50000x64.Idx → EReal) (A2 : S50000x1.Idx → EReal) (A3 A4 : S64x64.Idx → EReal) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.Dense.dense A0 (Cert.Dense.less A1 A2) A3 A4) := by
  unfold out0_5
  rw [View.canon_unit_zero origin]
  simp only [View.ld_unit_zero (S := S5000x64) origin, View.ld_unit_zero (S := S5000x1) origin, View.ld_unit_zero (S := S64x64) origin]
  funext j
  show k0_pay1 (F := Ideal) (((cfg0.win 1).blk t).view.read (Elt Ideal) A1) (((cfg0.win 2).blk t).view.read (Elt Ideal) A2)
      (((cfg0.win 0).blk t).view.read (Elt Ideal) A0) (((cfg0.win 3).blk t).view.read (Elt Ideal) A3)
      (((cfg0.win 4).blk t).view.read (Elt Ideal) A4) j
    = (∑ k : Fin 64, A0 (Cert.Dense.rowK (((cfg0.win 5).blk t).view.emb j) k) * A3 (Cert.Dense.colK (((cfg0.win 5).blk t).view.emb j) k))
      + ∑ k : Fin 64, Cert.Dense.less A1 A2 (Cert.Dense.rowK (((cfg0.win 5).blk t).view.emb j) k) * A4 (Cert.Dense.colK (((cfg0.win 5).blk t).view.emb j) k)
  refine (Tile.stored _ _ _ _ _ j).trans ?_
  refine congrArg₂ (· + ·) (Finset.sum_congr rfl fun k _ => ?_) (Finset.sum_congr rfl fun k _ => ?_)
  · rw [read_feat t j k A0, read_W1 t j k A3]
  · rw [read_raw t j k A1, read_sums t j k A2, read_W2 t j k A4]
    rfl

/-- WHAT POINT `t` WRITES BACK is block `t` of the dense stage of the arrays as the region finds them. -/
theorem flushed_eq (c : Dev nD) (t : Fin cfg0.N) :
    (dats m 0 c).flushed 5 t = ((cfg0.win 5).blk t).view.read (Elt Ideal)
      (Cert.Dense.dense (V m c main_arg0) (agg m c) (V m c main_arg2) (V m c main_arg3)) :=
  (Value.flushed5 m c t).trans (stored_block (V m c main_arg0) (V m c main_v9) (V m c main_v14) (V m c main_arg2) (V m c main_arg3) t)

/-! ## The blocks tile the array -/

/-- An index of the array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Every entry of the result lies in the block of the point its row names: row `r` in block `r / 5000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  have hlt : (i 0).val / 5000 < grid0.N := by rw [hN]; omega
  obtain ⟨-, -, -, -, -, -, -, -, -, -, e1, e0⟩ := block_indices ⟨(i 0).val / 5000, hlt⟩
  have e0' : win0_5.index ⟨(i 0).val / 5000, hlt⟩ (0 : Fin 2) = (i 0).val / 5000 := e0
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0']; omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]; omega

/-- THE ARRAY after the run: the dense stage of the arrays as the region finds them. -/
theorem final (c : Dev nD) : (dats m 0 c).arrAt 5 cfg0.N
    = Cert.Dense.dense (V m c main_arg0) (agg m c) (V m c main_arg2) (V m c main_arg3) :=
  (dats m 0 c).arrAt_eq_of_cover 5 _ (fun t _ => flushed_eq m c t) cover

end Cert.KernelIdeal.DenseValue

end
-- ==== Proof.Aggregates.lean ====
/-
  The two per-node aggregates the host computes before the dense stage, as functions of the arguments.

  `raw`: the segment sum over destination nodes of the gathered source features, `raw[n, k] = ∑_{dst e = n} feat[src e, k]`
  (a scatter-add of the `[800000, 64]` gathered rows into zeros). `sums`: the segment sum of the edge weights,
  `sums[n] = ∑_{dst e = n} w[e]` (a scatter-add of the weights, flattened to `[800000]`, into zeros), reshaped to one column.
  When the region is entered the buffers the kernel's second and third windows read hold exactly these.
-/
import proofs.«146689_j5866925326658_2_alg».proof.Proof.Gen.KernelIdeal.Frame
import Idealize.ShloMosaic.Lib.StableHlo.Run
import Idealize.ShloMosaic.PureOps.Ideal

noncomputable section

namespace Cert.KernelIdeal.Aggregates

open Cert.KernelIdeal Cert.KernelIdeal.Gen Idealize.ShloMosaic Idealize.ShloMosaic.TcCoe Idealize.SL.Sem Idealize.ShloMosaic.StableHlo

/-- The scatter indices: the destination node of each edge, one per update row. -/
def dstRows (x5 : IVec S800000 32) : IVec S800000x1 32 :=
  broadcastInDim S800000x1 ![0] bcast_S800000_S800000x1_0 x5

/-- The gathered source features: row `e` is the feature row of edge `e`'s source node (a negative index wraps once). -/
def gathered (x0 : FVec Ideal S50000x64 .f32) (x4 : IVec S800000 32) : FVec Ideal S800000x64 .f32 :=
  Host.gather gather_S50000x64_S800000x1_S800000x64_1_0_n_n_0_1_164 x0
    (broadcastInDim S800000x1 ![0] bcast_S800000_S800000x1_0
      (select (cmpi .slt x4 (broadcastInDim S800000 ![] bcast_S_S800000 (constantI S_ 32 0#32)))
        (addi x4 (broadcastInDim S800000 ![] bcast_S_S800000 (constantI S_ 32 50000#32))) x4))

/-- The raw neighbour sums. -/
def raw (x0 : FVec Ideal S50000x64 .f32) (x4 x5 : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32))
    (dstRows x5) (gathered x0 x4)

/-- The per-node weight sums, as one column. -/
def sums (x1 : FVec Ideal S800000x1 .f32) (x5 : IVec S800000 32) : FVec Ideal S50000x1 .f32 :=
  shapeCast S50000x1
    (Host.scatterAdd scatter_S50000_S800000x1_S800000_n_0_0_1 (broadcastInDim S50000 ![] bcast_S_S50000 (constant (F := Ideal) S_ .f32 0x00000000#32))
      (dstRows x5) (shapeCast S800000 x1 shapeCasts_S800000x1_S800000))
    shapeCasts_S50000_S50000x1

variable (m : (ℓ : Loc nD τ sig) → Buf (Elt Ideal) ℓ)

/-- The second window's array when the region is entered. -/
theorem raw_eq (c : Dev nD) : (V m c main_v9 : S50000x64.Idx → EReal)
    = raw (m ((c : Thread nD τ).loc main_arg0)) (m ((c : Thread nD τ).loc main_arg4)) (m ((c : Thread nD τ).loc main_arg5)) := by
  dsimp only [Gen.V, Gen.hostOps0]
  after_results
  rfl

/-- The third window's array when the region is entered. -/
theorem sums_eq (c : Dev nD) : (V m c main_v14 : S50000x1.Idx → EReal)
    = sums (m ((c : Thread nD τ).loc main_arg1)) (m ((c : Thread nD τ).loc main_arg5)) := by
  dsimp only [Gen.V, Gen.hostOps0]
  after_results
  rfl

end Cert.KernelIdeal.Aggregates

end
-- ==== Proof.LibSegmentSum.lean ====
/-
  A float scatter-add whose scatter indices name ROWS, read at an index.

  `jax.ops.segment_sum(data, ids, num_segments = N)` lowers to a `stablehlo.scatter` with an `add` body over
  scatter indices of shape `[E, 1]`: update row `e` is added to operand row `ids[e]`, read signed, and is dropped
  when that row is outside `[0, N)`. Two layouts occur: updates `[E, D]` into an operand `[N, D]` (a row of `D`
  entries per update: the window axis is axis 1) and updates `[E]` into an operand `[N]` (one entry per update, no
  window axis). At the exact instance both are, entry by entry, the operand plus the sum of the updates over the SAME
  set of edges `{e | ids[e] = n}` (`rows_apply`, `entries_apply`), so a segment sum of differences `g e k - w e`
  with every `w e` real is the difference of the two segment sums (`sum_sub_coe`): on the extended reals the
  subtraction of a REAL distributes over a finite sum, which it does not for infinite `w`.
-/
import Idealize.ShloMosaic.PureOps.Ideal
import Idealize.ShloMosaic.Lib.ValueIdx

noncomputable section

open scoped BigOperators

namespace Cert.SegmentSum

open Idealize.ShloMosaic Idealize.ShloMosaic.ValueIdx

/-! ## The two layouts' dimension numbers -/

/-- Updates `[E, D]` into an operand `[N, D]`, one scatter index per update row. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Updates `[E]` into an operand `[N]`, one scatter index per update entry. -/
abbrev entriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment edge `e` is sent to: its scatter index, read signed. -/
def seg {E w : Nat} (idx : IVec ⟨2, ![E, 1]⟩ w) (e : Fin E) : Int := (idx (ix2 e (0 : Fin 1))).toInt

section Rows
variable {N E D w : Nat} (wf : ScatterDims.WF ⟨2, ![N, D]⟩ ⟨2, ![E, 1]⟩ ⟨2, ![E, D]⟩ [1] [0] [0] 1)
variable (idx : IVec ⟨2, ![E, 1]⟩ w) (e : Fin E) (q : Fin D)

theorem rows_start0 : (rowsDims N E D wf).start (ix2 e q) idx 0 = seg idx e := by
  unfold ScatterDims.start
  rw [dif_pos (show (0 : Fin 2) ∈ (rowsDims N E D wf).scatterDimsToOperandDims from List.mem_singleton.mpr rfl)]
  have hsi : (rowsDims N E D wf).siIdx (ix2 e q) ⟨List.idxOf (0 : Fin 2) (rowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_start1 : (rowsDims N E D wf).start (ix2 e q) idx 1 = 0 := by
  unfold ScatterDims.start
  rw [dif_neg (show ¬ (1 : Fin 2) ∈ (rowsDims N E D wf).scatterDimsToOperandDims by
    show ¬ (1 : Fin 2) ∈ [(0 : Fin 2)]; decide)]

theorem rows_window0 : (rowsDims N E D wf).window (ix2 e q) 0 = 0 := by
  unfold ScatterDims.window
  rw [dif_neg (show ¬ (0 : Fin 2) ∈ (rowsDims N E D wf).sKept by
    show ¬ (0 : Fin 2) ∈ (List.finRange 2).filter (fun a => a ∉ [(0 : Fin 2)]); decide)]

theorem rows_window1 : (rowsDims N E D wf).window (ix2 e q) 1 = q.val := by
  unfold ScatterDims.window
  rw [dif_pos (show (1 : Fin 2) ∈ (rowsDims N E D wf).sKept by
    show (1 : Fin 2) ∈ (List.finRange 2).filter (fun a => a ∉ [(0 : Fin 2)]); decide)]
  rfl

/-- Update entry `(e, q)` lands on operand entry `(n, k)` exactly when edge `e`'s segment is `n` and `q = k`. -/
theorem rows_resultIdx_iff (n : Fin N) (k : Fin D) :
    (rowsDims N E D wf).resultIdx? (ix2 e q) idx = some (ix2 n k) ↔ seg idx e = (n.val : Int) ∧ q = k := by
  have s0 := rows_start0 wf idx e q
  have s1 := rows_start1 wf idx e q
  have w0 := rows_window0 wf e q
  have w1 := rows_window1 wf e q
  unfold ScatterDims.resultIdx?
  split_ifs with h
  · rw [Option.some.injEq]
    constructor
    · intro h'
      have h0 := congrArg Fin.val (congrFun h' 0)
      have h1 := congrArg Fin.val (congrFun h' 1)
      have p0 := (h 0).1
      simp only [s0, w0] at h0 p0
      simp only [s1, w1] at h1
      refine ⟨?_, Fin.ext ?_⟩
      · have : ((seg idx e + ((0 : Nat) : Int)).toNat : Nat) = n.val := h0
        omega
      · have : (((0 : Int) + (q.val : Int)).toNat : Nat) = k.val := h1
        omega
    · rintro ⟨hs, rfl⟩
      funext a; refine Fin.ext ?_
      match a with
      | ⟨0, _⟩ =>
        show ((rowsDims N E D wf).start (ix2 e q) idx 0 + ((rowsDims N E D wf).window (ix2 e q) 0 : Int)).toNat = n.val
        rw [s0, w0, hs]; omega
      | ⟨1, _⟩ =>
        show ((rowsDims N E D wf).start (ix2 e q) idx 1 + ((rowsDims N E D wf).window (ix2 e q) 1 : Int)).toNat = q.val
        rw [s1, w1]; omega
  · constructor
    · intro h'; exact absurd h' (by simp)
    · rintro ⟨hs, rfl⟩
      exfalso; apply h
      intro a
      match a with
      | ⟨0, _⟩ =>
        show 0 ≤ (rowsDims N E D wf).start (ix2 e q) idx 0 + ((rowsDims N E D wf).window (ix2 e q) 0 : Int) ∧
          (rowsDims N E D wf).start (ix2 e q) idx 0 + ((rowsDims N E D wf).window (ix2 e q) 0 : Int) < (N : Int)
        rw [s0, w0, hs]; have := n.isLt; omega
      | ⟨1, _⟩ =>
        show 0 ≤ (rowsDims N E D wf).start (ix2 e q) idx 1 + ((rowsDims N E D wf).window (ix2 e q) 1 : Int) ∧
          (rowsDims N E D wf).start (ix2 e q) idx 1 + ((rowsDims N E D wf).window (ix2 e q) 1 : Int) < (D : Int)
        rw [s1, w1]; have := q.isLt; omega

end Rows

section Entries
variable {N E w : Nat} (wf : ScatterDims.WF ⟨1, ![N]⟩ ⟨2, ![E, 1]⟩ ⟨1, ![E]⟩ [] [0] [0] 1)
variable (idx : IVec ⟨2, ![E, 1]⟩ w) (e : Fin E)

theorem entries_start0 : (entriesDims N E wf).start (ix1 e) idx 0 = seg idx e := by
  unfold ScatterDims.start
  rw [dif_pos (show (0 : Fin 1) ∈ (entriesDims N E wf).scatterDimsToOperandDims from List.mem_singleton.mpr rfl)]
  have hsi : (entriesDims N E wf).siIdx (ix1 e) ⟨List.idxOf (0 : Fin 1) (entriesDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem entries_window0 : (entriesDims N E wf).window (ix1 e) 0 = 0 := by
  unfold ScatterDims.window
  rw [dif_neg (show ¬ (0 : Fin 1) ∈ (entriesDims N E wf).sKept by
    show ¬ (0 : Fin 1) ∈ (List.finRange 1).filter (fun a => a ∉ [(0 : Fin 1)]); decide)]

/-- Update entry `e` lands on operand entry `n` exactly when edge `e`'s segment is `n`. -/
theorem entries_resultIdx_iff (n : Fin N) :
    (entriesDims N E wf).resultIdx? (ix1 e) idx = some (ix1 n) ↔ seg idx e = (n.val : Int) := by
  have s0 := entries_start0 wf idx e
  have w0 := entries_window0 wf e
  unfold ScatterDims.resultIdx?
  split_ifs with h
  · rw [Option.some.injEq]
    constructor
    · intro h'
      have h0 := congrArg Fin.val (congrFun h' 0)
      have p0 := (h 0).1
      simp only [s0, w0] at h0 p0
      have : ((seg idx e + ((0 : Nat) : Int)).toNat : Nat) = n.val := h0
      omega
    · intro hs
      funext a; refine Fin.ext ?_
      match a with
      | ⟨0, _⟩ =>
        show ((entriesDims N E wf).start (ix1 e) idx 0 + ((entriesDims N E wf).window (ix1 e) 0 : Int)).toNat = n.val
        rw [s0, w0, hs]; omega
  · constructor
    · intro h'; exact absurd h' (by simp)
    · intro hs
      exfalso; apply h
      intro a
      match a with
      | ⟨0, _⟩ =>
        show 0 ≤ (entriesDims N E wf).start (ix1 e) idx 0 + ((entriesDims N E wf).window (ix1 e) 0 : Int) ∧
          (entriesDims N E wf).start (ix1 e) idx 0 + ((entriesDims N E wf).window (ix1 e) 0 : Int) < (N : Int)
        rw [s0, w0, hs]; have := n.isLt; omega

end Entries

/-! ## The exact scatter-add at an entry -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE ROWS LAYOUT AT `(n, k)`: the operand's entry plus the sum, over the edges whose segment is `n`, of column
    `k` of their update rows. -/
theorem rows_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd (rowsDims N E D wf) x idx upd (ix2 n k)
      = x (ix2 n k) + ∑ e ∈ Finset.univ.filter (fun e : Fin E => seg idx e = (n.val : Int)), upd (ix2 e k) := by
  unfold Ideal.hostScatterAdd
  congr 1
  rw [Finset.sum_filter, Finset.sum_filter, sum_idx2]
  refine Finset.sum_congr rfl fun e _ => ?_
  by_cases hs : seg idx e = (n.val : Int)
  · rw [if_pos hs, Finset.sum_eq_single k]
    · rw [if_pos ((rows_resultIdx_iff wf idx e k n k).2 ⟨hs, rfl⟩)]
    · intro q _ hq
      rw [if_neg (fun h => hq ((rows_resultIdx_iff wf idx e q n k).1 h).2)]
    · intro h; exact absurd (Finset.mem_univ k) h
  · rw [if_neg hs]
    refine Finset.sum_eq_zero fun q _ => ?_
    rw [if_neg (fun h => hs ((rows_resultIdx_iff wf idx e q n k).1 h).1)]

/-- THE ENTRIES LAYOUT AT `n`: the operand's entry plus the sum of the updates of the edges whose segment is `n`. -/
theorem entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (entriesDims N E wf) x idx upd (ix1 n)
      = x (ix1 n) + ∑ e ∈ Finset.univ.filter (fun e : Fin E => seg idx e = (n.val : Int)), upd (ix1 e) := by
  unfold Ideal.hostScatterAdd
  congr 1
  rw [Finset.sum_filter, Finset.sum_filter, ← Equiv.sum_comp (idxEquiv1 (n := E)).symm]
  refine Finset.sum_congr rfl fun e _ => ?_
  show (if (entriesDims N E wf).resultIdx? (ix1 e) idx = some (ix1 n) then upd (ix1 e) else 0) = _
  by_cases hs : seg idx e = (n.val : Int)
  · rw [if_pos hs, if_pos ((entries_resultIdx_iff wf idx e n).2 hs)]
  · rw [if_neg hs, if_neg (fun h => hs ((entries_resultIdx_iff wf idx e n).1 h))]

/-! ## Subtracting reals under a finite sum -/

/-- On the extended reals, a finite sum of differences `g e - w e` with every `w e` REAL is the difference of the
    sums. (With infinite `w` it is false: `(0 - ⊥) + (0 - ⊤) = ⊥` while `(0 + 0) - (⊥ + ⊤) = ⊤`.) -/
theorem sum_sub_coe {ι : Type*} (s : Finset ι) (g : ι → EReal) (w : ι → ℝ) :
    ∑ e ∈ s, (g e - (w e : EReal)) = ∑ e ∈ s, g e - ∑ e ∈ s, (w e : EReal) := by
  classical
  have hw : ∀ s : Finset ι, ∑ e ∈ s, (w e : EReal) = ((∑ e ∈ s, w e : ℝ) : EReal) := by
    intro s
    induction s using Finset.induction_on with
    | empty => simp
    | insert a s ha ih => rw [Finset.sum_insert ha, Finset.sum_insert ha, ih, EReal.coe_add]
  rw [hw s]
  clear hw
  induction s using Finset.induction_on with
  | empty => simp
  | insert a s ha ih =>
    rw [Finset.sum_insert ha, Finset.sum_insert ha, Finset.sum_insert ha, ih, EReal.coe_add,
      sub_eq_add_neg, sub_eq_add_neg, sub_eq_add_neg, ← EReal.coe_add, ← EReal.coe_neg, ← EReal.coe_neg, ← EReal.coe_neg,
      neg_add, EReal.coe_add, add_add_add_comm]

/-! ## The segment sum of differences -/

/-- SUBTRACTING A REAL PER-EDGE WEIGHT COMMUTES WITH THE SEGMENT SUM. Scatter-adding, into zeros, update rows
    `u e k = u' e k − r e` (`r e` real) gives at `(n, k)` the scatter-add of the rows `u'` at `(n, k)` less the
    scatter-add of the weights `r` at `n`: all three sums run over the edges whose segment is `n`. -/
theorem segment_sum_sub {N E D w : Nat}
    (wf2 : ScatterDims.WF ⟨2, ![N, D]⟩ ⟨2, ![E, 1]⟩ ⟨2, ![E, D]⟩ [1] [0] [0] 1)
    (wf1 : ScatterDims.WF ⟨1, ![N]⟩ ⟨2, ![E, 1]⟩ ⟨1, ![E]⟩ [] [0] [0] 1)
    (z z' : (⟨2, ![N, D]⟩ : Shape).Idx → EReal) (z₁ : (⟨1, ![N]⟩ : Shape).Idx → EReal) (idx : IVec ⟨2, ![E, 1]⟩ w)
    (u u' : (⟨2, ![E, D]⟩ : Shape).Idx → EReal) (v : (⟨1, ![E]⟩ : Shape).Idx → EReal) (r : Fin E → ℝ)
    (n : Fin N) (k : Fin D)
    (hz : z (ix2 n k) = 0) (hz' : z' (ix2 n k) = 0) (hz₁ : z₁ (ix1 n) = 0)
    (hv : ∀ e, v (ix1 e) = (r e : EReal)) (hu : ∀ e, u (ix2 e k) = u' (ix2 e k) - (r e : EReal)) :
    Ideal.hostScatterAdd (rowsDims N E D wf2) z idx u (ix2 n k)
      = Ideal.hostScatterAdd (rowsDims N E D wf2) z' idx u' (ix2 n k)
        - Ideal.hostScatterAdd (entriesDims N E wf1) z₁ idx v (ix1 n) := by
  rw [rows_apply, rows_apply, entries_apply, hz, hz', hz₁, zero_add, zero_add, zero_add,
    Finset.sum_congr rfl (fun e _ => hu e), Finset.sum_congr rfl (fun e _ => hv e)]
  exact sum_sub_coe _ _ _

end Cert.SegmentSum

end
-- ==== Proof.Bridge.lean ====
/-
  The kernel's aggregate is the reference's.

  The reference sums the messages `feat[src e] − w[e]` over the edges into each destination node; the kernel sums the
  gathered features and the weights separately and subtracts per node. Entry by entry,
      ∑_{dst e = n} (feat[src e, k] − w[e])  =  ∑_{dst e = n} feat[src e, k]  −  ∑_{dst e = n} w[e],
  which holds on the extended reals because every weight is a real number (the precondition): both programs gather the
  same rows and scatter by the same destination indices, so the three sums run over the same edges.
-/
import proofs.«146689_j5866925326658_2_alg».proof.Proof.Aggregates
import proofs.«146689_j5866925326658_2_alg».proof.Proof.Gen.ReferenceIdeal.Read
import proofs.«146689_j5866925326658_2_alg».proof.Proof.LibSegmentSum
import proofs.«146689_j5866925326658_2_alg».proof.Proof.Dense
import Idealize.ShloMosaic.Lib.Pipeline.Value
import Idealize.ShloMosaic.PureOps.Ideal.Laws

noncomputable section

open scoped BigOperators

namespace Cert.KernelIdeal.Bridge

open Cert.KernelIdeal Cert.KernelIdeal.Gen Idealize.ShloMosaic Idealize.ShloMosaic.ValueIdx Cert.SegmentSum

/-- A `[N]` array reshaped to one column `[N, 1]`, at `(n, 0)`. -/
theorem column_apply {α : Type} (x : S50000.Idx → α) (j : S50000x1.Idx) (n : Fin 50000) (hn : (j 0).val = n.val) :
    shapeCast S50000x1 x shapeCasts_S50000_S50000x1 j = x (ix1 n) :=
  shapeCast_apply x shapeCasts_S50000_S50000x1 j (ix1 n) (by
    rw [Shape.rowMajor_val_one, Shape.rowMajor_val_two]
    show n.val = (j 0).val * 1 + (j 1).val
    have : (j 1).val < 1 := (j 1).isLt
    omega)

/-- An `[E, 1]` column flattened to `[E]`, at `e`. -/
theorem flat_apply {α : Type} (x : S800000x1.Idx → α) (e : Fin 800000) :
    shapeCast S800000 x shapeCasts_S800000x1_S800000 (ix1 e) = x (ix2 e (0 : Fin 1)) :=
  shapeCast_apply x shapeCasts_S800000x1_S800000 (ix1 e) (ix2 e (0 : Fin 1)) (by
    rw [Shape.rowMajor_val_one, Shape.rowMajor_val_two]
    show e.val * 1 + 0 = e.val
    omega)

/-- The printed dimension numbers are the two segment-sum layouts. -/
theorem rows_dims_kernel : scatter_S50000x64_S800000x1_S800000x64_1_0_0_1 = rowsDims 50000 800000 64 scatter_S50000x64_S800000x1_S800000x64_1_0_0_1_wf := rfl
theorem entries_dims_kernel : scatter_S50000_S800000x1_S800000_n_0_0_1 = entriesDims 50000 800000 scatter_S50000_S800000x1_S800000_n_0_0_1_wf := rfl
theorem rows_dims_reference : Cert.ReferenceIdeal.scatter_S50000x64_S800000x1_S800000x64_1_0_0_1 = rowsDims 50000 800000 64 scatter_S50000x64_S800000x1_S800000x64_1_0_0_1_wf := rfl

/-- The kernel's raw neighbour sums, as the exact scatter-add in the rows layout. -/
theorem raw_eq_rows (x0 : FVec Ideal S50000x64 .f32) (x4 x5 : IVec S800000 32) :
    Aggregates.raw x0 x4 x5
      = Ideal.hostScatterAdd (rowsDims 50000 800000 64 scatter_S50000x64_S800000x1_S800000x64_1_0_0_1_wf)
          (broadcastInDim S50000x64 ![] bcast_S_S50000x64 (constant (F := Ideal) S_ .f32 0x00000000#32))
          (Aggregates.dstRows x5) (Aggregates.gathered x0 x4) := by
  unfold Aggregates.raw Host.scatterAdd
  rw [Ideal.hostScatterAdd_def, rows_dims_kernel]

/-- The kernel's weight sums at a node's key, as the exact scatter-add in the entries layout. -/
theorem sums_eq_entries (x1 : FVec Ideal S800000x1 .f32) (x5 : IVec S800000 32) (j : S50000x1.Idx) (n : Fin 50000)
    (hn : (j 0).val = n.val) :
    Aggregates.sums x1 x5 j
      = Ideal.hostScatterAdd (entriesDims 50000 800000 scatter_S50000_S800000x1_S800000_n_0_0_1_wf)
          (broadcastInDim S50000 ![] bcast_S_S50000 (constant (F := Ideal) S_ .f32 0x00000000#32))
          (Aggregates.dstRows x5) (shapeCast S800000 x1 shapeCasts_S800000x1_S800000) (ix1 n) := by
  unfold Aggregates.sums Host.scatterAdd
  rw [Ideal.hostScatterAdd_def, entries_dims_kernel]
  exact column_apply _ j n hn

/-- The reference's aggregate, as the exact scatter-add in the rows layout by the same destination indices. -/
theorem agg_eq_rows (x0 : FVec Ideal S50000x64 .f32) (x1 : FVec Ideal S800000x1 .f32) (x4 x5 : IVec S800000 32) :
    Cert.ReferenceIdeal.Read.val_main_v11 (F := Ideal) x0 x1 x4 x5
      = Ideal.hostScatterAdd (rowsDims 50000 800000 64 scatter_S50000x64_S800000x1_S800000x64_1_0_0_1_wf) (Cert.ReferenceIdeal.Read.val_main_v9 (F := Ideal))
          (Aggregates.dstRows x5) (Cert.ReferenceIdeal.Read.val_main_v8 (F := Ideal) x0 x1 x4) := by
  unfold Cert.ReferenceIdeal.Read.val_main_v11 Host.scatterAdd
  rw [Ideal.hostScatterAdd_def, rows_dims_reference]
  rfl

/-- The reference's messages at `(e, k)`: the gathered feature less the edge's weight. -/
theorem message_apply (x0 : FVec Ideal S50000x64 .f32) (x1 : FVec Ideal S800000x1 .f32) (x4 : IVec S800000 32)
    (e : Fin 800000) (k : Fin 64) :
    Cert.ReferenceIdeal.Read.val_main_v8 (F := Ideal) x0 x1 x4 (ix2 e k)
      = Aggregates.gathered x0 x4 (ix2 e k) - x1 (ix2 e (0 : Fin 1)) := by
  rw [Cert.ReferenceIdeal.Read.val_main_v8_apply, Cert.ReferenceIdeal.Read.val_main_v7_apply]
  have hi : Cert.ReferenceIdeal.Read.idx_main_v7 (ix2 e k) = ix2 e (0 : Fin 1) := funext fun a => by
    match a with
    | ⟨0, _⟩ => rfl
    | ⟨1, _⟩ => rfl
  rw [hi]
  rfl

/-- AT EVERY ENTRY the kernel's aggregate — raw neighbour sums less the node's weight sum — is the reference's segment
    sum of the messages, when every edge weight is real. -/
theorem agg_eq (x0 : FVec Ideal S50000x64 .f32) (x1 : FVec Ideal S800000x1 .f32) (x4 x5 : IVec S800000 32)
    (hw : ∀ j : S800000x1.Idx, ∃ r : ℝ, x1 j = (r : EReal)) (j : S50000x64.Idx) :
    Aggregates.raw x0 x4 x5 j - Aggregates.sums x1 x5 (Cert.Dense.keyOf j)
      = Cert.ReferenceIdeal.Read.val_main_v11 (F := Ideal) x0 x1 x4 x5 j := by
  obtain ⟨n, k, rfl⟩ : ∃ (n : Fin 50000) (k : Fin 64), j = ix2 n k := ⟨j 0, j 1, eq_ix2 j⟩
  choose r hr using fun e : Fin 800000 => hw (ix2 e (0 : Fin 1))
  rw [raw_eq_rows, sums_eq_entries x1 x5 (Cert.Dense.keyOf (ix2 n k)) n rfl, agg_eq_rows]
  refine (segment_sum_sub scatter_S50000x64_S800000x1_S800000x64_1_0_0_1_wf scatter_S50000_S800000x1_S800000_n_0_0_1_wf _ _ _ (Aggregates.dstRows x5) _ _ _ r n k ?_ ?_ ?_ ?_ ?_).symm
  · exact Ideal.ofBits_zero_f32
  · exact Ideal.ofBits_zero_f32
  · exact Ideal.ofBits_zero_f32
  · intro e
    rw [flat_apply, hr e]
  · intro e
    rw [message_apply, hr e]

end Cert.KernelIdeal.Bridge

end
-- ==== Proof.Reference.lean ====
/-
  The reference's result is the dense stage of ITS aggregate: `feat · W₁ + agg · W₂` with `agg` the segment sum of the
  messages `feat[src] − edge_weight`; the two `dot_general`s are read as sums over the 64 contracted positions.
-/
import proofs.«146689_j5866925326658_2_alg».proof.Proof.Gen.ReferenceIdeal.Read
import proofs.«146689_j5866925326658_2_alg».proof.Proof.Dense

noncomputable section

open scoped BigOperators

namespace Cert.ReferenceIdeal.DenseValue

open Cert.ReferenceIdeal Cert.ReferenceIdeal.Read Idealize.ShloMosaic

theorem result_eq_dense (x0 : FVec Ideal S50000x64 .f32) (x1 : FVec Ideal S800000x1 .f32) (x2 x3 : FVec Ideal S64x64 .f32)
    (x4 x5 : IVec S800000 32) :
    val_main_v14 (F := Ideal) x0 x1 x2 x3 x4 x5 = Cert.Dense.dense x0 (val_main_v11 (F := Ideal) x0 x1 x4 x5) x2 x3 := by
  funext i
  have el12 : ∀ k, lidx_main_v12 i k = Cert.Dense.rowK i k := fun k => funext fun a => by
    match a with
    | ⟨0, _⟩ => rfl
    | ⟨1, _⟩ => rfl
  have er12 : ∀ k, ridx_main_v12 i k = Cert.Dense.colK i k := fun k => funext fun a => by
    match a with
    | ⟨0, _⟩ => rfl
    | ⟨1, _⟩ => rfl
  have el13 : ∀ k, lidx_main_v13 i k = Cert.Dense.rowK i k := fun k => funext fun a => by
    match a with
    | ⟨0, _⟩ => rfl
    | ⟨1, _⟩ => rfl
  have er13 : ∀ k, ridx_main_v13 i k = Cert.Dense.colK i k := fun k => funext fun a => by
    match a with
    | ⟨0, _⟩ => rfl
    | ⟨1, _⟩ => rfl
  rw [val_main_v14_apply, val_main_v12_apply, val_main_v13_apply]
  simp only [el12, er12, el13, er13]
  rfl

end Cert.ReferenceIdeal.DenseValue

end
-- ==== Proof.Weights.lean ====
/-
  The precondition, read at one entry of the edge weights.

  `finite_inputs` is the conjunction of four "every entry has absolute value below +∞" tests, one per float argument.
  Its second conjunct, read at one index of the `[800000, 1]` edge-weight array, says `max w (−w) < ⊤` on the extended
  reals — so that entry is neither `⊤` nor `⊥`: it is a real number. This is the only finiteness the equivalence uses
  (subtracting a weight under a finite sum needs the weight real).
-/
import proofs.«146689_j5866925326658_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Weights

open Cert.Pre_finite_inputs Idealize.ShloMosaic Idealize.ShloMosaic.ValueIdx

instance : Subsingleton S_.Idx := ⟨fun a b => funext fun d => d.elim0⟩

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every edge weight is a real number. -/
theorem real (x0 : FVec Ideal S50000x64 .f32) (x1 : FVec Ideal S800000x1 .f32) (x2 x3 : FVec Ideal S64x64 .f32)
    (x4 x5 : IVec S800000 32) (h : fn (F := Ideal) x0 x1 x2 x3 x4 x5 = fun _ => 1#1) (j : S800000x1.Idx) :
    ∃ r : ℝ, x1 j = (r : EReal) := by
  have h0 := congrFun h ix0
  dsimp only [fn, fn_part1] at h0
  obtain ⟨h13, -⟩ := IntOp.andi_eq_one.1 h0
  obtain ⟨h8, -⟩ := IntOp.andi_eq_one.1 h13
  obtain ⟨-, h7⟩ := IntOp.andi_eq_one.1 h8
  have hj := Host.reduce_andi_all _ _ _ _ _ h7 j
  refine real_of_abs_lt_top (x1 j) ?_
  have hlt : max (x1 j) (-(x1 j)) < Ideal.ofBits .f32 0x7F800000#32 := by
    by_contra hn
    have : cmpf .olt (Host.absf x1) (broadcastInDim S800000x1 ![] Facts.bcast_S_S800000x1 (constant (F := Ideal) S_ .f32 0x7F800000#32)) j = 0#1 := by
      show Ideal.cmp .olt (max (x1 j) (-(x1 j))) (Ideal.ofBits .f32 0x7F800000#32) = 0#1
      simp only [Ideal.cmp, decide_eq_false hn]
      rfl
    rw [this] at hj
    exact absurd hj (by decide)
  have htop : Ideal.ofBits .f32 0x7F800000#32 = ⊤ := by simp [Ideal.ofBits, Ideal.ieee]
  rwa [htop] at hlt

end Cert.Pre_finite_inputs.Weights

end
-- ==== Proof.lean ====
/-
  A graph convolution's dense stage against its reference, equal over the extended reals.

  Both programs compute, for node features `feat` (50000 × 64), edge weights `w` (800000 × 1), edge lists `src`, `dst`
  and weights `W₁`, `W₂` (64 × 64),
      out = feat · W₁ + agg · W₂,     agg[n, k] = ∑_{dst e = n} (feat[src e, k] − w[e]).
  The reference forms the messages `feat[src e, ·] − w[e]` and scatter-adds them by destination. The kernel scatter-adds
  the gathered features and the weights separately (`raw`, `sums`), and a ten-point pipelined kernel computes, on
  5000-row tiles, `feat · W₁ + (raw − sums) · W₂` with both products on the matrix unit from a zero accumulator.

  With exact arithmetic the two agree because (i) a rounding to bf16 is the identity and a matrix product is the sum over
  the contracted axis on both sides, (ii) the ten row tiles cover the result, and (iii) subtracting a REAL weight
  commutes with a finite sum — `∑ (g e − w e) = ∑ g e − ∑ w e` — which is where the precondition is used: every edge
  weight is finite. (For infinite weights of both signs meeting at one node the two sides differ.)
  Nothing was rewritten when the kernel was idealized, so that conjunct is trivial; the three frame conjuncts are the
  programs' runs with the results dropped.
-/
import proofs.«146689_j5866925326658_2_alg».proof.Defs
import proofs.«146689_j5866925326658_2_alg».proof.Proof.Gen.Kernel
import proofs.«146689_j5866925326658_2_alg».proof.Proof.Gen.Kernel.Skeleton
import proofs.«146689_j5866925326658_2_alg».proof.Proof.Gen.Kernel.Launch
import proofs.«146689_j5866925326658_2_alg».proof.Proof.Gen.Kernel.Points
import proofs.«146689_j5866925326658_2_alg».proof.Proof.Gen.Kernel.Frame
import proofs.«146689_j5866925326658_2_alg».proof.Proof.Gen.KernelIdeal
import proofs.«146689_j5866925326658_2_alg».proof.Proof.Gen.KernelIdeal.Skeleton
import proofs.«146689_j5866925326658_2_alg».proof.Proof.Gen.KernelIdeal.Launch
import proofs.«146689_j5866925326658_2_alg».proof.Proof.Gen.KernelIdeal.Points
import proofs.«146689_j5866925326658_2_alg».proof.Proof.Gen.KernelIdeal.Frame
import proofs.«146689_j5866925326658_2_alg».proof.Proof.Gen.ReferenceIdeal
import proofs.«146689_j5866925326658_2_alg».proof.Proof.Gen.Pre_finite_inputs
import proofs.«146689_j5866925326658_2_alg».proof.Proof.Gen.KernelIdeal.Value
import proofs.«146689_j5866925326658_2_alg».proof.Proof.Gen.ReferenceIdeal.Run
import proofs.«146689_j5866925326658_2_alg».proof.Proof.Gen.ReferenceIdeal.Read
import proofs.«146689_j5866925326658_2_alg».proof.Proof.Array
import proofs.«146689_j5866925326658_2_alg».proof.Proof.Aggregates
import proofs.«146689_j5866925326658_2_alg».proof.Proof.Bridge
import proofs.«146689_j5866925326658_2_alg».proof.Proof.Reference
import proofs.«146689_j5866925326658_2_alg».proof.Proof.Weights
import Idealize.ShloMosaic.Adequacy
import Idealize.ShloMosaic.Init

noncomputable section

namespace Cert.Proof

open Idealize.ShloMosaic Idealize.ShloMosaic.TcCoe Idealize.SL.Sem

/-! ## The kernel's result array as a function of the arguments -/

section KernelResult
open Cert.KernelIdeal Cert.KernelIdeal.Gen

variable (m : (ℓ : Loc nD τ sig) → Buf (Elt Ideal) ℓ)

/-- Under the precondition the aggregate the kernel's tiles read is the reference's segment sum of the messages. -/
theorem agg_eq (hpre : Cert.Pre_KernelIdeal m) (c : Dev nD) :
    Cert.KernelIdeal.DenseValue.agg m c
      = Cert.ReferenceIdeal.Read.val_main_v11 (F := Ideal) (m ((c : Thread nD τ).loc main_arg0)) (m ((c : Thread nD τ).loc main_arg1))
          (m ((c : Thread nD τ).loc main_arg4)) (m ((c : Thread nD τ).loc main_arg5)) := by
  funext j
  unfold Cert.KernelIdeal.DenseValue.agg Cert.Dense.less
  rw [Cert.KernelIdeal.Aggregates.raw_eq, Cert.KernelIdeal.Aggregates.sums_eq]
  exact Cert.KernelIdeal.Bridge.agg_eq _ _ _ _ (Cert.Pre_finite_inputs.Weights.real _ _ _ _ _ _ (hpre c)) j

/-- After the kernel's run the result array is the dense stage of the arguments at the reference's aggregate. -/
theorem kernel_result (hpre : Cert.Pre_KernelIdeal m) (c : Dev nD) :
    (dats m 0 c).arrAt 5 cfg0.N
      = Cert.Dense.dense (m ((c : Thread nD τ).loc main_arg0))
          (Cert.ReferenceIdeal.Read.val_main_v11 (F := Ideal) (m ((c : Thread nD τ).loc main_arg0)) (m ((c : Thread nD τ).loc main_arg1))
            (m ((c : Thread nD τ).loc main_arg4)) (m ((c : Thread nD τ).loc main_arg5)))
          (m ((c : Thread nD τ).loc main_arg2)) (m ((c : Thread nD τ).loc main_arg3)) := by
  rw [Cert.KernelIdeal.DenseValue.final m c, agg_eq m hpre c, V_main_arg0, V_main_arg2, V_main_arg3]

end KernelResult

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the dense stage of the (agreeing) arguments at the reference's aggregate. -/
theorem algebraic : Cert.algebraic_KernelIdeal_ReferenceIdeal := by
  intro m ρ m' ρ' hpre hagree
  refine ⟨_, (θ_run Cert.KernelIdeal.defs _ _).mono (fun r h c => ⟨(h c).1.trans (kernel_result m hpre c), (h c).2⟩)
    (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.DenseValue.result_eq_dense,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
